-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S4x128x128 : Shape := ⟨3, ![4, 128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S4x128x128 : S_.BroadcastsInDim S4x128x128 (![] : Fin 0 → Fin S4x128x128.rank)
  reducesTo_S4x128x128_S_d0_1_2 : S4x128x128.ReducesTo [0, 1, 2] S_

variable [Facts]

def fn {F : FTy → Type} [FloatOps F] (main_arg0 : FVec F S100000x128 .f32) (main_arg1 : FVec F S1600000 .f32) (main_arg2 : FVec F S4x128x128 .f32) (main_arg3 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S4x128x128 .f32 := Host.absf main_arg2
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S4x128x128 : Shape := ⟨3, ![4, 128, 128]⟩
abbrev S2x1600000 : Shape := ⟨2, ![2, 1600000]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S2000x128 : Shape := ⟨2, ![2000, 128]⟩
abbrev S1x128x128 : Shape := ⟨3, ![1, 128, 128]⟩
abbrev S128x128 : Shape := ⟨2, ![128, 128]⟩

abbrev nBuf : Space → Nat
  | .hbm => 60
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S4x128x128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S1600000x1, .f32⟩
  | .hbm, ⟨37, _⟩ => ⟨S1600000x128, .f32⟩
  | .hbm, ⟨38, _⟩ => ⟨S1600000x128, .f32⟩
  | .hbm, ⟨39, _⟩ => ⟨S_, .f32⟩
  | .hbm, ⟨40, _⟩ => ⟨S100000x128, .f32⟩
  | .hbm, ⟨41, _⟩ => ⟨S1600000x1, .i32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x1, .f32⟩
  | .hbm, ⟨53, _⟩ => ⟨S1600000x128, .f32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S4x128x128, .f32⟩
  | .local _ .vmem, ⟨9, _⟩ => ⟨S2000x128, .f32⟩
  | .local _ .vmem, ⟨10, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_2 : Ref sig .tc := ⟨.hbm, 27, rfl⟩
abbrev main_v19 : Ref sig .tc := ⟨.hbm, 28, rfl⟩
abbrev main_v20 : Ref sig .tc := ⟨.hbm, 29, rfl⟩
abbrev main_c_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_5 : Ref sig .tc := ⟨.hbm, 43, rfl⟩
abbrev main_v32 : Ref sig .tc := ⟨.hbm, 44, rfl⟩
abbrev main_v33 : Ref sig .tc := ⟨.hbm, 45, rfl⟩
abbrev main_c_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4x128x128_S1x128x128_0_0_0 : ∀ a, (![0, 0, 0] : Fin 3 → Nat) a + S1x128x128.size a ≤ S4x128x128.size a
  h_S1x128x128 : 0 < S1x128x128.numel
  shapeCasts_S1x128x128_S128x128 : S1x128x128.ShapeCasts S128x128
  bitsLt_bf16_f32 : FTy.bits .bf16 < FTy.bits .f32
  inb_S4x128x128_S1x128x128_1_0_0 : ∀ a, (![1, 0, 0] : Fin 3 → Nat) a + S1x128x128.size a ≤ S4x128x128.size a
  inb_S4x128x128_S1x128x128_2_0_0 : ∀ a, (![2, 0, 0] : Fin 3 → Nat) a + S1x128x128.size a ≤ S4x128x128.size a
  inb_S4x128x128_S1x128x128_3_0_0 : ∀ a, (![3, 0, 0] : Fin 3 → Nat) a + S1x128x128.size a ≤ S4x128x128.size a
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x128x128.size a ≤ S4x128x128.size a
  hwx0_4 : ∀ i : grid0.Coords, EltTy.bits .f32 = 32 ∨ (Rect.block (s := S4x128x128) S4x128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S4x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v45) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S4x128x128 : Shape := ⟨3, ![4, 128, 128]⟩
abbrev S2x1600000 : Shape := ⟨2, ![2, 1600000]⟩
abbrev S1x1600000 : Shape := ⟨2, ![1, 1600000]⟩
abbrev S_ : Shape := ⟨0, ![]⟩
abbrev S1x128x128 : Shape := ⟨3, ![1, 128, 128]⟩
abbrev S128x128 : Shape := ⟨2, ![128, 128]⟩
abbrev S1600000x1 : Shape := ⟨2, ![1600000, 1]⟩
abbrev S1600000x128 : Shape := ⟨2, ![1600000, 128]⟩

abbrev nBuf : Space → Nat
  | .hbm => 74
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S4x128x128, .f32⟩
  | .hbm, ⟨3, _⟩ => ⟨S2x1600000, .i32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .f32⟩
  | .hbm, ⟨9, _⟩ => ⟨S1600000, .f32⟩
  | .hbm, ⟨10, _⟩ => ⟨S1600000, .f32⟩
  | .hbm, ⟨11, _⟩ => ⟨S1x128x128, .f32⟩
  | .hbm, ⟨12, _⟩ => ⟨S128x128, .f32⟩
  | .hbm, ⟨13, _⟩ => ⟨S100000x128, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x1, .f32⟩
  | .hbm, ⟨24, _⟩ => ⟨S1600000x128, .f32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S1x128x128, .f32⟩
  | .hbm, ⟨31, _⟩ => ⟨S128x128, .f32⟩
  | .hbm, ⟨32, _⟩ => ⟨S100000x128, .f32⟩
  | .hbm, ⟨33, _⟩ => ⟨S100000x128, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x128, .f32⟩
  | .hbm, ⟨43, _⟩ => ⟨S1600000x1, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128x128, .f32⟩
  | .hbm, ⟨51, _⟩ => ⟨S128x128, .f32⟩
  | .hbm, ⟨52, _⟩ => ⟨S100000x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S1600000x1, .f32⟩
  | .hbm, ⟨64, _⟩ => ⟨S1600000x128, .f32⟩
  | .hbm, ⟨65, _⟩ => ⟨S1600000x128, .f32⟩
  | .hbm, ⟨66, _⟩ => ⟨S_, .f32⟩
  | .hbm, ⟨67, _⟩ => ⟨S100000x128, .f32⟩
  | .hbm, ⟨68, _⟩ => ⟨S1600000x1, .i32⟩
  | .hbm, ⟨69, _⟩ => ⟨S100000x128, .f32⟩
  | .hbm, ⟨70, _⟩ => ⟨S1x128x128, .f32⟩
  | .hbm, ⟨71, _⟩ => ⟨S128x128, .f32⟩
  | .hbm, ⟨72, _⟩ => ⟨S100000x128, .f32⟩
  | .hbm, ⟨73, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_2 : Ref sig .tc := ⟨.hbm, 34, rfl⟩
abbrev main_v26 : Ref sig .tc := ⟨.hbm, 35, rfl⟩
abbrev main_v27 : Ref sig .tc := ⟨.hbm, 36, rfl⟩
abbrev main_c_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_5 : Ref sig .tc := ⟨.hbm, 54, rfl⟩
abbrev main_v43 : Ref sig .tc := ⟨.hbm, 55, rfl⟩
abbrev main_v44 : Ref sig .tc := ⟨.hbm, 56, rfl⟩
abbrev main_c_6 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_7 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  slices_S4x128x128_S1x128x128_0_0_0 : S4x128x128.Slices ![0, 0, 0] S1x128x128
  shapeCasts_S1x128x128_S128x128 : S1x128x128.ShapeCasts S128x128
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.LibDot.lean ====
/-
  Contractions and layout operations read at an index, in the forms the score head and the distance head need:
  a one-axis contraction (a matrix product of either program) as a sum over `Fin K`, and row-major positions of small ranks.
-/
import Idealize.ShloMosaic.PureOps.Ideal.Laws
import Idealize.ShloMosaic.Lib.ValueIdx
import Idealize.ShloMosaic.Lib.Pipeline.Value

noncomputable section

namespace Cert.LibDot

open Idealize.ShloMosaic Idealize.ShloMosaic.ValueIdx

/-- A contraction over ONE axis of extent `K`, re-indexed by that axis's coordinate: whatever the two operand indices
    are at the contraction position whose one coordinate is `k` (`hL`, `hR`), the sum over the contraction shape is the sum
    over `Fin K` of the operands there. -/
theorem sum_contr_eq {sl sr so : Shape} (D : DotDims sl sr so) (K : ℕ) (hr : D.contr.rank = 1)
    (hs : D.contr.size ⟨0, by omega⟩ = K) (x : sl.Idx → EReal) (y : sr.Idx → EReal) (j : so.Idx)
    (L : Fin K → sl.Idx) (R : Fin K → sr.Idx)
    (hL : ∀ k, D.lhsIdx j ((contrEquiv1 D K hr hs).symm k) = L k)
    (hR : ∀ k, D.rhsIdx j ((contrEquiv1 D K hr hs).symm k) = R k) :
    ∑ k : D.contr.Idx, x (D.lhsIdx j k) * y (D.rhsIdx j k) = ∑ k : Fin K, x (L k) * y (R k) := by
  rw [← Equiv.sum_comp (contrEquiv1 D K hr hs).symm]
  exact Finset.sum_congr rfl fun k _ => by rw [hL, hR]

end Cert.LibDot

end
-- ==== Proof.BlockProduct.lean ====
/-
  What the kernel's body stores, read at an index.

  At a grid point the body holds four blocks of 2000 rows — the rows of that point in the signal after 0, 1, 2 and 3
  hops — and the whole array of taps. It multiplies each block by its tap on the matrix unit, each product into a zero
  accumulator, and adds the four products from the left. On the extended reals a change of float format is the identity
  and a product into a zero accumulator is the plain sum over the contracted axis, so the stored value at row `p` of the
  block and feature `q` is
      ((∑ₖ x₀(p,k)·W(0,k,q) + ∑ₖ x₁(p,k)·W(1,k,q)) + ∑ₖ x₂(p,k)·W(2,k,q)) + ∑ₖ x₃(p,k)·W(3,k,q),
  where `W(h,·,·)` is the `h`-th 1 × 128 × 128 slab of the taps read as a 128 × 128 matrix.
-/
import proofs.«133562_j58780922413075_1_alg».proof.Proof.Gen.KernelIdeal.Skeleton
import proofs.«133562_j58780922413075_1_alg».proof.Proof.LibDot
import Idealize.ShloMosaic.PureOps.Ideal.Laws
import Idealize.ShloMosaic.Lib.ValueIdx
import Idealize.ShloMosaic.Lib.Pipeline.Value

noncomputable section

namespace Cert.KernelIdeal.BlockProduct

open Cert.KernelIdeal Cert.KernelIdeal.Gen Idealize.ShloMosaic Idealize.ShloMosaic.ValueIdx

/-- The contraction of the body's matrix products runs over one axis, -/
theorem contr_rank : dot_S2000x128_S128x128_S2000x128_1_0_0_1_n_n.contr.rank = 1 := rfl
/-- of 128 positions. -/
theorem contr_size : dot_S2000x128_S128x128_S2000x128_1_0_0_1_n_n.contr.size ⟨0, by decide⟩ = 128 := rfl

/-- The left operand's index at an output index and a contraction position: its row is the output's row, -/
theorem lhs_row (i : S2000x128.Idx) (u : dot_S2000x128_S128x128_S2000x128_1_0_0_1_n_n.contr.Idx) :
    (dot_S2000x128_S128x128_S2000x128_1_0_0_1_n_n.lhsIdx i u 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- its column the contraction position. -/
theorem lhs_col (i : S2000x128.Idx) (u : dot_S2000x128_S128x128_S2000x128_1_0_0_1_n_n.contr.Idx) :
    (dot_S2000x128_S128x128_S2000x128_1_0_0_1_n_n.lhsIdx i u 1).val = (u ⟨0, by decide⟩).val :=
  dot_S2000x128_S128x128_S2000x128_1_0_0_1_n_n.lhsIdx_val_of_single rfl i u
/-- The right operand's row is the contraction position, -/
theorem rhs_row (i : S2000x128.Idx) (u : dot_S2000x128_S128x128_S2000x128_1_0_0_1_n_n.contr.Idx) :
    (dot_S2000x128_S128x128_S2000x128_1_0_0_1_n_n.rhsIdx i u 0).val = (u ⟨0, by decide⟩).val :=
  dot_S2000x128_S128x128_S2000x128_1_0_0_1_n_n.rhsIdx_val_of_single rfl i u
/-- its column the output's column. -/
theorem rhs_col (i : S2000x128.Idx) (u : dot_S2000x128_S128x128_S2000x128_1_0_0_1_n_n.contr.Idx) :
    (dot_S2000x128_S128x128_S2000x128_1_0_0_1_n_n.rhsIdx i u 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- So at output (p, q) and contraction position k the left operand is read at (p, k), -/
theorem lhs_at (p : Fin 2000) (q k : Fin 128) :
    dot_S2000x128_S128x128_S2000x128_1_0_0_1_n_n.lhsIdx (ix2 p q)
      ((contrEquiv1 dot_S2000x128_S128x128_S2000x128_1_0_0_1_n_n 128 contr_rank contr_size).symm k) = ix2 p k :=
  funext fun a => Fin.ext (by
    match a with
    | ⟨0, _⟩ => exact lhs_row _ _
    | ⟨1, _⟩ => exact (lhs_col _ _).trans (contrEquiv1_symm_val dot_S2000x128_S128x128_S2000x128_1_0_0_1_n_n 128 contr_rank contr_size k))

/-- and the right operand at (k, q). -/
theorem rhs_at (p : Fin 2000) (q k : Fin 128) :
    dot_S2000x128_S128x128_S2000x128_1_0_0_1_n_n.rhsIdx (ix2 p q)
      ((contrEquiv1 dot_S2000x128_S128x128_S2000x128_1_0_0_1_n_n 128 contr_rank contr_size).symm k) = ix2 k q :=
  funext fun a => Fin.ext (by
    match a with
    | ⟨0, _⟩ => exact (rhs_row _ _).trans (contrEquiv1_symm_val dot_S2000x128_S128x128_S2000x128_1_0_0_1_n_n 128 contr_rank contr_size k)
    | ⟨1, _⟩ => exact rhs_col _ _)

/-- One 1 × 128 × 128 slab read as a 128 × 128 matrix: entry (k, q) is the slab's entry (0, k, q). -/
theorem slab_at (v : Vec Ideal S1x128x128 .f32) (k q : Fin 128) :
    (shapeCast S128x128 v shapeCasts_S1x128x128_S128x128 : FVec Ideal S128x128 .f32) (ix2 k q) = v (ix3 0 k q) :=
  shapeCast_apply v shapeCasts_S1x128x128_S128x128 (ix2 k q) (ix3 0 k q) (by
    rw [Shape.rowMajor_val_three, Shape.rowMajor_val_two]
    show (0 * 128 + k.val) * 128 + q.val = k.val * 128 + q.val
    omega)

/-- A block against a slab read as a matrix, summed over the input features: the slab's entries (0, k, q). -/
theorem sum_slab (x : Vec Ideal S2000x128 .f32) (v : Vec Ideal S1x128x128 .f32) (p : Fin 2000) (q : Fin 128) :
    ∑ k : Fin 128, x (ix2 p k) * (shapeCast S128x128 v shapeCasts_S1x128x128_S128x128 : FVec Ideal S128x128 .f32) (ix2 k q)
      = ∑ k : Fin 128, x (ix2 p k) * v (ix3 0 k q) :=
  Finset.sum_congr rfl fun k _ => congrArg (fun w => x (ix2 p k) * w) (slab_at v k q)

/-- One block times one tap into a zero accumulator, at (p, q): the sum over the 128 input features. -/
theorem product_at (x : FVec Ideal S2000x128 .bf16) (w : FVec Ideal S128x128 .bf16) (p : Fin 2000) (q : Fin 128) :
    matmul dot_S2000x128_S128x128_S2000x128_1_0_0_1_n_n none x w (constant (F := Ideal) S2000x128 .f32 0x00000000#32) (ix2 p q)
      = ∑ k : Fin 128, x (ix2 p k) * w (ix2 k q) := by
  refine (Ideal.matmul_constant_zero_apply dot_S2000x128_S128x128_S2000x128_1_0_0_1_n_n none x w (ix2 p q)).trans ?_
  exact Cert.LibDot.sum_contr_eq dot_S2000x128_S128x128_S2000x128_1_0_0_1_n_n 128 contr_rank contr_size x w (ix2 p q)
    (fun k => ix2 p k) (fun k => ix2 k q) (fun k => lhs_at p q k) (fun k => rhs_at p q k)

/-- THE STORED VALUE at row `p` of the block and feature `q`: the four products, added from the left. -/
theorem stored_at (v0 v3 v6 v9 : Vec Ideal S1x128x128 .f32) (v12 v15 v20 v25 : Vec Ideal S2000x128 .f32)
    (p : Fin 2000) (q : Fin 128) :
    k0_pay1 (F := Ideal) v0 v3 v6 v9 v12 v15 v20 v25 (ix2 p q)
      = ((∑ k : Fin 128, v12 (ix2 p k) * v0 (ix3 0 k q) + ∑ k : Fin 128, v15 (ix2 p k) * v3 (ix3 0 k q))
          + ∑ k : Fin 128, v20 (ix2 p k) * v6 (ix3 0 k q)) + ∑ k : Fin 128, v25 (ix2 p k) * v9 (ix3 0 k q) := by
  unfold k0_pay1
  simp only [shapeCast_self]
  rw [addf_apply, addf_apply, addf_apply, product_at, product_at, product_at, product_at]
  simp only [truncf_apply]
  exact congrArg₂ (· + ·) (congrArg₂ (· + ·) (congrArg₂ (· + ·) (sum_slab v12 v0 p q) (sum_slab v15 v3 p q))
    (sum_slab v20 v6 p q)) (sum_slab v25 v9 p q)

end Cert.KernelIdeal.BlockProduct

end
-- ==== Proof.GraphFilter.lean ====
/-
  The graph filter's last stage as one function of whole arrays.

  A graph signal is an array of 100000 nodes by 128 features; the filter has four taps, each a 128 × 128 matrix, stored as
  one array of 4 × 128 × 128. Given the signal after 0, 1, 2 and 3 hops of the graph shift, the filter's output at node `p`
  and feature `q` is
      ((z₀ W₀ + z₁ W₁) + z₂ W₂) + z₃ W₃   at (p, q),
  each product the sum over the 128 input features `k` of `z (p, k) · W (h, k, q)`, on the extended reals. The four terms are
  added from the left, in hop order. Nothing here needs the entries to be finite: the statement only names sums and
  products, it never moves a factor across a sum.
-/
import Idealize.ShloMosaic.PureOps.Ideal
import Idealize.ShloMosaic.Lib.ValueIdx

noncomputable section

namespace Cert.GraphFilter

open Idealize.ShloMosaic Idealize.ShloMosaic.ValueIdx

/-- A graph signal: 100000 nodes, 128 features each. -/
abbrev Signal : Shape := ⟨2, ![100000, 128]⟩
/-- The filter's taps: four matrices of 128 input features by 128 output features. -/
abbrev Taps : Shape := ⟨3, ![4, 128, 128]⟩

/-- Tap `h` applied to the signal `z`, at node `p` and output feature `q`: row `p` of `z` against column `q` of the
    `h`-th matrix. -/
def tap (h : Fin 4) (z : Signal.Idx → EReal) (W : Taps.Idx → EReal) (p : Fin 100000) (q : Fin 128) : EReal :=
  ∑ k : Fin 128, z (ix2 p k) * W (ix3 h k q)

/-- The filter's output: the four taps applied to the signal after 0, 1, 2, 3 hops, added from the left. -/
def filter (z0 z1 z2 z3 : Signal.Idx → EReal) (W : Taps.Idx → EReal) : Signal.Idx → EReal := fun i =>
  ((tap 0 z0 W (i 0) (i 1) + tap 1 z1 W (i 0) (i 1)) + tap 2 z2 W (i 0) (i 1)) + tap 3 z3 W (i 0) (i 1)

/-- The output at explicit coordinates. -/
theorem filter_ix2 (z0 z1 z2 z3 : Signal.Idx → EReal) (W : Taps.Idx → EReal) (p : Fin 100000) (q : Fin 128) :
    filter z0 z1 z2 z3 W (ix2 p q) = ((tap 0 z0 W p q + tap 1 z1 W p q) + tap 2 z2 W p q) + tap 3 z3 W p q := rfl

end Cert.GraphFilter

end
-- ==== Proof.RowBlocks.lean ====
/-
  From the blocks the grid points write to the whole output array.

  The grid has 50 points. Point `t` works on rows `2000 t … 2000 t + 1999`: it reads those rows of the four hop signals,
  reads the whole array of taps, and writes those rows of the output. So block `t` of the output is block `t` of the
  filter's output (Proof/GraphFilter.lean) of the four signals as the region finds them, and the 50 blocks tile the 100000
  rows: the row `r` lies in the block of point `r / 2000`. Hence the output array ends holding the filter's output.
-/
import proofs.«133562_j58780922413075_1_alg».proof.Proof.Gen.KernelIdeal.Value
import proofs.«133562_j58780922413075_1_alg».proof.Proof.BlockProduct
import proofs.«133562_j58780922413075_1_alg».proof.Proof.GraphFilter

set_option maxRecDepth 16384

noncomputable section

namespace Cert.KernelIdeal.RowBlocks

open Cert.KernelIdeal Cert.KernelIdeal.Gen Idealize.ShloMosaic Idealize.ShloMosaic.TcCoe Idealize.SL.Sem
open Idealize.ShloMosaic.ValueIdx Cert.GraphFilter
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The index maps over the grid: at point `t` the four signals' windows and the output's window are on block `(t, 0)`,
    the taps' window on block `(0, 0, 0)`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = 0 ∧ win0_4.index t (1 : Fin 3) = 0 ∧ win0_4.index t (2 : Fin 3) = 0
    ∧ win0_5.index t (0 : Fin 2) = t.val ∧ win0_5.index t (1 : Fin 2) = 0 :=
  (by decide +kernel : ∀ t : Fin grid0.N, _)

/-- Every block of rows is some point's. -/
theorem index_onto : ∀ r : Fin 50, ∃ t : Fin cfg0.N, win0_5.index t = ![r.val, 0] :=
  (by decide +kernel : ∀ r : Fin 50, ∃ t : Fin grid0.N, win0_5.index t = ![r.val, 0])

/-- Row `p` of point `t`'s block is row `2000 t + p` of the array. -/
def row (t : Fin cfg0.N) (p : Fin 2000) : Fin 100000 :=
  ⟨t.val * 2000 + p.val, by have h : t.val < 50 := lt_of_lt_of_eq t.isLt N_0; have := p.isLt; omega⟩

/-! ## Each window's block as entries of its array -/

/-- A signal's block at point `t`, for ANY contents `A` of the signal's array: entry (p, k) of the block is `A` at
    (2000 t + p, k). Stated for the window of the unhopped signal, -/
theorem read_rows0 (A : S100000x128.Idx → EReal) (t : Fin cfg0.N) (p : Fin 2000) (k : Fin 128) :
    ((cfg0.win 0).blk t).view.read (Elt Ideal) A (ix2 p k) = A (ix2 (row t p) k) := by
  obtain ⟨e0, e1, -⟩ := index_facts t
  rw [View.read_apply]
  show A (((cfg0.win 0).blk t).view.emb (ix2 p k)) = A (ix2 (row t p) k)
  refine congrArg A (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- of the signal after one hop, -/
theorem read_rows1 (A : S100000x128.Idx → EReal) (t : Fin cfg0.N) (p : Fin 2000) (k : Fin 128) :
    ((cfg0.win 1).blk t).view.read (Elt Ideal) A (ix2 p k) = A (ix2 (row t p) k) := by
  obtain ⟨-, -, e0, e1, -⟩ := index_facts t
  rw [View.read_apply]
  show A (((cfg0.win 1).blk t).view.emb (ix2 p k)) = A (ix2 (row t p) k)
  refine congrArg A (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * k.val = k.val; rw [e1]; omega

/-- after two hops, -/
theorem read_rows2 (A : S100000x128.Idx → EReal) (t : Fin cfg0.N) (p : Fin 2000) (k : Fin 128) :
    ((cfg0.win 2).blk t).view.read (Elt Ideal) A (ix2 p k) = A (ix2 (row t p) k) := by
  obtain ⟨-, -, -, -, e0, e1, -⟩ := index_facts t
  rw [View.read_apply]
  show A (((cfg0.win 2).blk t).view.emb (ix2 p k)) = A (ix2 (row t p) k)
  refine congrArg A (funext fun a => Fin.ext ?_)
  match a with
  | ⟨0, _⟩ => show win0_2.index t (0 : Fin 2) * 2000 + 1 * p.val = t.val * 2000 + p.val; rw [e0]; omega
  | ⟨1, _⟩ => show win0_2.index t (1 : Fin 2) * 128 + 1 * k.val = k.val; rw [e1]; omega

/-- and after three. -/
theorem read_rows3 (A : S100000x128.Idx → EReal) (t : Fin cfg0.N) (p : Fin 2000) (k : Fin 128) :
    ((cfg0.win 3).blk t).view.read (Elt Ideal) A (ix2 p k) = A (ix2 (row t p) k) := by
  obtain ⟨-, -, -, -, -, -, e0, e1, -⟩ := index_facts t
  rw [View.read_apply]
  show A (((cfg0.win 3).blk t).view.emb (ix2 p k)) = A (ix2 (row t p) k)
  refine congrArg A (funext fun a => Fin.ext ?_)
  match a with
  | ⟨0, _⟩ => show win0_3.index t (0 : Fin 2) * 2000 + 1 * p.val = t.val * 2000 + p.val; rw [e0]; omega
  | ⟨1, _⟩ => show win0_3.index t (1 : Fin 2) * 128 + 1 * k.val = k.val; rw [e1]; omega

/-- So the block of the unhopped signal the body loads at point `t`, whole, is rows `2000 t …` of the array as the region finds it, -/
theorem rows0 (c : Dev nD) (t : Fin cfg0.N) (p : Fin 2000) (k : Fin 128) :
    View.ld (iblk m c 0 t : Vec Ideal S2000x128 .f32) r0_4 (ix2 p k) = V m c main_arg0 (ix2 (row t p) k) := by
  rw [View.ld_unit_zero (S := S2000x128) origin]
  unfold iblk
  exact read_rows0 (V m c main_arg0) t p k

/-- and the same after one hop, -/
theorem rows1 (c : Dev nD) (t : Fin cfg0.N) (p : Fin 2000) (k : Fin 128) :
    View.ld (iblk m c 1 t : Vec Ideal S2000x128 .f32) r0_4 (ix2 p k) = V m c main_v18 (ix2 (row t p) k) := by
  rw [View.ld_unit_zero (S := S2000x128) origin]
  unfold iblk
  exact read_rows1 (V m c main_v18) t p k

/-- two hops, -/
theorem rows2 (c : Dev nD) (t : Fin cfg0.N) (p : Fin 2000) (k : Fin 128) :
    View.ld (iblk m c 2 t : Vec Ideal S2000x128 .f32) r0_4 (ix2 p k) = V m c main_v31 (ix2 (row t p) k) := by
  rw [View.ld_unit_zero (S := S2000x128) origin]
  unfold iblk
  exact read_rows2 (V m c main_v31) t p k

/-- three hops. -/
theorem rows3 (c : Dev nD) (t : Fin cfg0.N) (p : Fin 2000) (k : Fin 128) :
    View.ld (iblk m c 3 t : Vec Ideal S2000x128 .f32) r0_4 (ix2 p k) = V m c main_v44 (ix2 (row t p) k) := by
  rw [View.ld_unit_zero (S := S2000x128) origin]
  unfold iblk
  exact read_rows3 (V m c main_v44) t p k

/-- The taps' block is the whole array at every point; the load of its `h`-th slab reads tap `h`. Slab 0: -/
theorem taps0 (c : Dev nD) (t : Fin cfg0.N) (k q : Fin 128) :
    View.ld (iblk m c 4 t : Vec Ideal S4x128x128 .f32) r0_0 (ix3 0 k q) = V m c main_arg2 (ix3 0 k q) := by
  obtain ⟨-, -, -, -, -, -, -, -, e0, e1, e2, -⟩ := index_facts t
  show V m c main_arg2 (((cfg0.win 4).blk t).view.emb (r0_0.emb (ix3 0 k q))) = V m c main_arg2 (ix3 0 k q)
  refine congrArg (V m c main_arg2) (funext fun a => Fin.ext ?_)
  match a with
  | ⟨0, _⟩ => show win0_4.index t (0 : Fin 3) * 4 + 1 * (0 + 1 * 0) = 0; rw [e0]
  | ⟨1, _⟩ => show win0_4.index t (1 : Fin 3) * 128 + 1 * (0 + 1 * k.val) = k.val; rw [e1]; omega
  | ⟨2, _⟩ => show win0_4.index t (2 : Fin 3) * 128 + 1 * (0 + 1 * q.val) = q.val; rw [e2]; omega

/-- slab 1, -/
theorem taps1 (c : Dev nD) (t : Fin cfg0.N) (k q : Fin 128) :
    View.ld (iblk m c 4 t : Vec Ideal S4x128x128 .f32) r0_1 (ix3 0 k q) = V m c main_arg2 (ix3 1 k q) := by
  obtain ⟨-, -, -, -, -, -, -, -, e0, e1, e2, -⟩ := index_facts t
  show V m c main_arg2 (((cfg0.win 4).blk t).view.emb (r0_1.emb (ix3 0 k q))) = V m c main_arg2 (ix3 1 k q)
  refine congrArg (V m c main_arg2) (funext fun a => Fin.ext ?_)
  match a with
  | ⟨0, _⟩ => show win0_4.index t (0 : Fin 3) * 4 + 1 * (1 + 1 * 0) = 1; rw [e0]
  | ⟨1, _⟩ => show win0_4.index t (1 : Fin 3) * 128 + 1 * (0 + 1 * k.val) = k.val; rw [e1]; omega
  | ⟨2, _⟩ => show win0_4.index t (2 : Fin 3) * 128 + 1 * (0 + 1 * q.val) = q.val; rw [e2]; omega

/-- slab 2, -/
theorem taps2 (c : Dev nD) (t : Fin cfg0.N) (k q : Fin 128) :
    View.ld (iblk m c 4 t : Vec Ideal S4x128x128 .f32) r0_2 (ix3 0 k q) = V m c main_arg2 (ix3 2 k q) := by
  obtain ⟨-, -, -, -, -, -, -, -, e0, e1, e2, -⟩ := index_facts t
  show V m c main_arg2 (((cfg0.win 4).blk t).view.emb (r0_2.emb (ix3 0 k q))) = V m c main_arg2 (ix3 2 k q)
  refine congrArg (V m c main_arg2) (funext fun a => Fin.ext ?_)
  match a with
  | ⟨0, _⟩ => show win0_4.index t (0 : Fin 3) * 4 + 1 * (2 + 1 * 0) = 2; rw [e0]
  | ⟨1, _⟩ => show win0_4.index t (1 : Fin 3) * 128 + 1 * (0 + 1 * k.val) = k.val; rw [e1]; omega
  | ⟨2, _⟩ => show win0_4.index t (2 : Fin 3) * 128 + 1 * (0 + 1 * q.val) = q.val; rw [e2]; omega

/-- slab 3. -/
theorem taps3 (c : Dev nD) (t : Fin cfg0.N) (k q : Fin 128) :
    View.ld (iblk m c 4 t : Vec Ideal S4x128x128 .f32) r0_3 (ix3 0 k q) = V m c main_arg2 (ix3 3 k q) := by
  obtain ⟨-, -, -, -, -, -, -, -, e0, e1, e2, -⟩ := index_facts t
  show V m c main_arg2 (((cfg0.win 4).blk t).view.emb (r0_3.emb (ix3 0 k q))) = V m c main_arg2 (ix3 3 k q)
  refine congrArg (V m c main_arg2) (funext fun a => Fin.ext ?_)
  match a with
  | ⟨0, _⟩ => show win0_4.index t (0 : Fin 3) * 4 + 1 * (3 + 1 * 0) = 3; rw [e0]
  | ⟨1, _⟩ => show win0_4.index t (1 : Fin 3) * 128 + 1 * (0 + 1 * k.val) = k.val; rw [e1]; omega
  | ⟨2, _⟩ => show win0_4.index t (2 : Fin 3) * 128 + 1 * (0 + 1 * q.val) = q.val; rw [e2]; omega

/-- The output block's entry (p, q) at point `t` sits at (2000 t + p, q) of the output array. -/
theorem out_at (t : Fin cfg0.N) (p : Fin 2000) (q : Fin 128) :
    ((cfg0.win 5).blk t).view.emb (ix2 p q) = ix2 (row t p) q := by
  obtain ⟨-, -, -, -, -, -, -, -, -, -, -, e0, e1⟩ := index_facts t
  funext a; apply Fin.ext
  match a with
  | ⟨0, _⟩ => show win0_5.index t (0 : Fin 2) * 2000 + 1 * p.val = t.val * 2000 + p.val; rw [e0]; omega
  | ⟨1, _⟩ => show win0_5.index t (1 : Fin 2) * 128 + 1 * q.val = q.val; rw [e1]; omega

/-! ## What a point writes back -/

/-- The hop signals and the taps as the region finds them, filtered. -/
abbrev filtered (c : Dev nD) : S100000x128.Idx → EReal :=
  filter (V m c main_arg0) (V m c main_v18) (V m c main_v31) (V m c main_v44) (V m c main_arg2)

/-- WHAT POINT `t` WRITES BACK is block `t` of the filtered signals. -/
theorem flushed_eq (c : Dev nD) (t : Fin cfg0.N) :
    (dats m 0 c).flushed 5 t = ((cfg0.win 5).blk t).view.read (Elt Ideal) (filtered m c) := by
  show (cfg0.win 5).cut (grid0.coords t) ((dats m 0 c).after 5 t) = _
  rw [after0_5]
  unfold out0_5
  rw [View.canon_unit_zero origin]
  funext j
  obtain ⟨p, q, rfl⟩ : ∃ (p : Fin 2000) (q : Fin 128), j = ix2 p q := ⟨j 0, j 1, eq_ix2 j⟩
  show k0_pay1 (View.ld (iblk m c 4 t) r0_0) (View.ld (iblk m c 4 t) r0_1) (View.ld (iblk m c 4 t) r0_2) (View.ld (iblk m c 4 t) r0_3)
      (View.ld (iblk m c 0 t) r0_4) (View.ld (iblk m c 1 t) r0_4) (View.ld (iblk m c 2 t) r0_4) (View.ld (iblk m c 3 t) r0_4) (ix2 p q)
    = filtered m c (((cfg0.win 5).blk t).view.emb (ix2 p q))
  rw [out_at t p q]
  refine (BlockProduct.stored_at (View.ld (iblk m c 4 t) r0_0) (View.ld (iblk m c 4 t) r0_1) (View.ld (iblk m c 4 t) r0_2) (View.ld (iblk m c 4 t) r0_3)
      (View.ld (iblk m c 0 t) r0_4) (View.ld (iblk m c 1 t) r0_4) (View.ld (iblk m c 2 t) r0_4) (View.ld (iblk m c 3 t) r0_4) p q).trans ?_
  simp only [rows0 m c t, rows1 m c t, rows2 m c t, rows3 m c t, taps0 m c t, taps1 m c t, taps2 m c t, taps3 m c t]
  rfl

/-! ## The cover, and the array after the run -/

/-- An index of the output array is in point `t`'s block iff each coordinate is in the block's range on its axis. -/
theorem mem_block (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v45).slice (win0_5.rect t)).set ↔ _
  rw [View.set_slice_whole, Rect.mem_set_unit]
  exact Iff.rfl

/-- Row `r` of the output is written by point `r / 2000`. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := index_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_block]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- THE OUTPUT ARRAY after the run: the filtered signals. -/
theorem final (c : Dev nD) : (dats m 0 c).arrAt 5 cfg0.N = filtered m c :=
  (dats m 0 c).arrAt_eq_of_cover 5 (filtered m c) (fun t _ => flushed_eq m c t) cover

/-- The kernel's run, read: the output array at the filtered signals, the arguments unchanged. -/
theorem run : θ_run defs (onTc (τ := τ) (main (F := Ideal))) ⟨m, fun _ => 0, ρ⟩ fun r => ∀ c : Dev nD,
      r.2.mem ((c : Thread nD τ).loc main_v45) = filtered m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.RowBlocks

end
-- ==== Proof.SharedHops.lean ====
/-
  Both programs filter the same four signals.

  One hop of the graph shift sends a signal `z` to the signal whose row `r` is the sum, over the edges `e` whose
  destination is `r`, of row `source e` of `z` scaled by `weight e / 100000` (a negative source index counted from the
  end). Both programs compute it on the host by the same operations in the same order: gather the source rows, multiply by the
  broadcast scaled weights, scatter-add into a zero array by destination. Applied once, twice and three times to the argument
  signal this gives the three hop signals, and the kernel's program hands exactly these arrays to its grid: what the region finds
  in each of its three computed input arrays is, operation for operation, the term the reference's run names for the same hop.
  The hop itself is never opened.
-/
import proofs.«133562_j58780922413075_1_alg».proof.Proof.Gen.KernelIdeal.Frame
import proofs.«133562_j58780922413075_1_alg».proof.Proof.Gen.ReferenceIdeal.Read
import Idealize.ShloMosaic.Lib.StableHlo.Run

set_option maxRecDepth 8192

noncomputable section

namespace Cert.KernelIdeal.SharedHops

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The signal after one hop, as the region finds it, is the reference's. -/
theorem hop1 (c : Dev nD) :
    (V m c main_v18 : S100000x128.Idx → EReal)
      = Cert.ReferenceIdeal.Read.val_main_v21 (F := Ideal) (m ((c : Thread nD τ).loc main_arg0))
          (m ((c : Thread nD τ).loc main_arg1)) (m ((c : Thread nD τ).loc main_arg3)) := by
  dsimp only [V, hostOps0]
  after_results_simp
  rfl

set_option maxHeartbeats 8000000 in
/-- The same after two hops, -/
theorem hop2 (c : Dev nD) :
    (V m c main_v31 : S100000x128.Idx → EReal)
      = Cert.ReferenceIdeal.Read.val_main_v38 (F := Ideal) (m ((c : Thread nD τ).loc main_arg0))
          (m ((c : Thread nD τ).loc main_arg1)) (m ((c : Thread nD τ).loc main_arg3)) := by
  dsimp only [V, hostOps0]
  after_results_simp
  rfl

set_option maxHeartbeats 16000000 in
/-- and after three. -/
theorem hop3 (c : Dev nD) :
    (V m c main_v44 : S100000x128.Idx → EReal)
      = Cert.ReferenceIdeal.Read.val_main_v55 (F := Ideal) (m ((c : Thread nD τ).loc main_arg0))
          (m ((c : Thread nD τ).loc main_arg1)) (m ((c : Thread nD τ).loc main_arg3)) := by
  dsimp only [V, hostOps0]
  after_results_simp
  rfl

/-- The argument signal reaches the region as launched, -/
theorem hop0 (c : Dev nD) : (V m c main_arg0 : S100000x128.Idx → EReal) = m ((c : Thread nD τ).loc main_arg0) :=
  V_main_arg0 m c

/-- and so do the taps. -/
theorem taps (c : Dev nD) : (V m c main_arg2 : S4x128x128.Idx → EReal) = m ((c : Thread nD τ).loc main_arg2) :=
  V_main_arg2 m c

end Cert.KernelIdeal.SharedHops

end
-- ==== Proof.ReferenceFilter.lean ====
/-
  The reference's result is the filter's output of its own hop signals.

  The reference multiplies the signal after each hop by that hop's tap — a slice of the taps reshaped to a 128 × 128
  matrix — on the host, and adds the products from the left as it goes. Read at node `p` and feature `q`, each host
  product is the sum over the 128 input features `k` of the signal's entry (p, k) times the taps' entry (h, k, q): the
  reshape of the slice `[h : h+1]` at (k, q) is the taps' entry (h, k, q). So the result is the filter's output
  (Proof/GraphFilter.lean) of the argument signal, the three hop signals the reference computes, and the taps. The hop signals stay
  unopened: what matters is only that both programs filter the same four arrays.
-/
import proofs.«133562_j58780922413075_1_alg».proof.Proof.Gen.ReferenceIdeal.Read
import proofs.«133562_j58780922413075_1_alg».proof.Proof.GraphFilter

noncomputable section

namespace Cert.ReferenceIdeal.Filter

open Cert.ReferenceIdeal Cert.ReferenceIdeal.Read Idealize.ShloMosaic Idealize.ShloMosaic.ValueIdx Cert.GraphFilter

/-! ## The left operand of each product at (p, q) and position k is the signal's entry (p, k) -/

theorem lidx8 (p : Fin 100000) (q k : Fin 128) : lidx_main_v8 (ix2 p q) k = ix2 p k :=
  funext fun a => Fin.ext (by match a with | ⟨0, _⟩ => rfl | ⟨1, _⟩ => rfl)
theorem lidx24 (p : Fin 100000) (q k : Fin 128) : lidx_main_v24 (ix2 p q) k = ix2 p k :=
  funext fun a => Fin.ext (by match a with | ⟨0, _⟩ => rfl | ⟨1, _⟩ => rfl)
theorem lidx41 (p : Fin 100000) (q k : Fin 128) : lidx_main_v41 (ix2 p q) k = ix2 p k :=
  funext fun a => Fin.ext (by match a with | ⟨0, _⟩ => rfl | ⟨1, _⟩ => rfl)
theorem lidx58 (p : Fin 100000) (q k : Fin 128) : lidx_main_v58 (ix2 p q) k = ix2 p k :=
  funext fun a => Fin.ext (by match a with | ⟨0, _⟩ => rfl | ⟨1, _⟩ => rfl)

/-! ## The right operand there is the taps' entry (h, k, q) -/

theorem matrix0 (x2 : (⟨S4x128x128, .f32⟩ : BufTy).Contents (Elt Ideal)) (p : Fin 100000) (q k : Fin 128) :
    val_main_v7 (F := Ideal) x2 (ridx_main_v8 (ix2 p q) k) = x2 (ix3 0 k q) := by
  rw [val_main_v7_apply, val_main_v6_apply]
  refine congrArg x2 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega
theorem matrix1 (x2 : (⟨S4x128x128, .f32⟩ : BufTy).Contents (Elt Ideal)) (p : Fin 100000) (q k : Fin 128) :
    val_main_v23 (F := Ideal) x2 (ridx_main_v24 (ix2 p q) k) = x2 (ix3 1 k q) := by
  rw [val_main_v23_apply, val_main_v22_apply]
  refine congrArg x2 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega
theorem matrix2 (x2 : (⟨S4x128x128, .f32⟩ : BufTy).Contents (Elt Ideal)) (p : Fin 100000) (q k : Fin 128) :
    val_main_v40 (F := Ideal) x2 (ridx_main_v41 (ix2 p q) k) = x2 (ix3 2 k q) := by
  rw [val_main_v40_apply, val_main_v39_apply]
  refine congrArg x2 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega
theorem matrix3 (x2 : (⟨S4x128x128, .f32⟩ : BufTy).Contents (Elt Ideal)) (p : Fin 100000) (q k : Fin 128) :
    val_main_v57 (F := Ideal) x2 (ridx_main_v58 (ix2 p q) k) = x2 (ix3 3 k q) := by
  rw [val_main_v57_apply, val_main_v56_apply]
  refine congrArg x2 (funext fun a => Fin.ext ?_)
  have hk := k.isLt
  have hq := q.isLt
  match a with
  | ⟨0, _⟩ => rfl
  | ⟨1, _⟩ => show (k.val * 128 + q.val) / 128 % 128 = k.val; omega
  | ⟨2, _⟩ => show (k.val * 128 + q.val) % 128 = q.val; omega

/-! ## The result -/

/-- THE REFERENCE'S RESULT is the filter's output of the argument signal, its three hop signals and the taps. -/
theorem result_eq (x0 : (⟨S100000x128, .f32⟩ : BufTy).Contents (Elt Ideal)) (x1 : (⟨S1600000, .f32⟩ : BufTy).Contents (Elt Ideal))
    (x2 : (⟨S4x128x128, .f32⟩ : BufTy).Contents (Elt Ideal)) (x3 : (⟨S2x1600000, .i32⟩ : BufTy).Contents (Elt Ideal)) :
    val_main_v59 (F := Ideal) x0 x1 x2 x3
      = filter x0 (val_main_v21 (F := Ideal) x0 x1 x3) (val_main_v38 (F := Ideal) x0 x1 x3) (val_main_v55 (F := Ideal) x0 x1 x3) x2 := by
  funext i
  obtain ⟨p, q, rfl⟩ : ∃ (p : Fin 100000) (q : Fin 128), i = ix2 p q := ⟨i 0, i 1, eq_ix2 i⟩
  rw [filter_ix2, val_main_v59_apply, val_main_v42_apply, val_main_v25_apply, val_main_v8_apply, val_main_v24_apply,
    val_main_v41_apply, val_main_v58_apply]
  simp only [Ideal.addf_def, tap, lidx8, lidx24, lidx41, lidx58, matrix0, matrix1, matrix2, matrix3]

end Cert.ReferenceIdeal.Filter

end
-- ==== Proof.lean ====
/-
  A graph filter of four taps: y = x W₀ + (S x) W₁ + (S² x) W₂ + (S³ x) W₃, on 100000 nodes of 128 features.

  S is the graph shift: row r of S z is the sum over the edges into r of the source node's row of z, scaled by the edge's weight
  over 100000. Both programs apply S three times on the host, by the same gather, product and scatter-add. They differ in the last
  stage only. The kernel hands the four signals x, S x, S² x, S³ x and the taps to a grid of 50 points; point t multiplies rows
  2000 t … 2000 t + 1999 of each signal by its tap on the matrix unit, in a narrower float format and into a zero accumulator, adds
  the four products from the left and writes those rows of y. The reference multiplies each whole signal by its tap on the host and
  adds the products from the left as it goes.

  On the extended reals a change of float format is the identity, and a matrix product, blocked by rows or not, into a zero
  accumulator or none, is the plain sum over the 128 contracted features. So both results are one function of the same four signals
  and the taps (Proof/GraphFilter.lean), term by term in the same order: no law of arithmetic is needed to join them, and none of it
  asks the inputs to be finite.

  The modules: GraphFilter (the function), BlockProduct (what the kernel's body stores, at an index), RowBlocks (the 50 blocks tile
  the output, so the array ends at the function of the signals as the region finds them), SharedHops (those signals are the
  reference's), ReferenceFilter (the reference's result is the function of its signals), LibDot (a contraction over one axis as a sum
  over its positions). The three frames are the generated ones; the idealized kernel is the kernel's own text read on the extended
  reals, so nothing is owed for that step.
-/
import proofs.«133562_j58780922413075_1_alg».proof.Defs
import proofs.«133562_j58780922413075_1_alg».proof.Proof.Gen.Kernel
import proofs.«133562_j58780922413075_1_alg».proof.Proof.Gen.Kernel.Skeleton
import proofs.«133562_j58780922413075_1_alg».proof.Proof.Gen.Kernel.Launch
import proofs.«133562_j58780922413075_1_alg».proof.Proof.Gen.Kernel.Points
import proofs.«133562_j58780922413075_1_alg».proof.Proof.Gen.Kernel.Frame
import proofs.«133562_j58780922413075_1_alg».proof.Proof.Gen.KernelIdeal
import proofs.«133562_j58780922413075_1_alg».proof.Proof.Gen.KernelIdeal.Skeleton
import proofs.«133562_j58780922413075_1_alg».proof.Proof.Gen.KernelIdeal.Launch
import proofs.«133562_j58780922413075_1_alg».proof.Proof.Gen.KernelIdeal.Points
import proofs.«133562_j58780922413075_1_alg».proof.Proof.Gen.KernelIdeal.Frame
import proofs.«133562_j58780922413075_1_alg».proof.Proof.Gen.ReferenceIdeal
import proofs.«133562_j58780922413075_1_alg».proof.Proof.Gen.Pre_finite_inputs
import proofs.«133562_j58780922413075_1_alg».proof.Proof.Gen.KernelIdeal.Value
import proofs.«133562_j58780922413075_1_alg».proof.Proof.Gen.ReferenceIdeal.Run
import proofs.«133562_j58780922413075_1_alg».proof.Proof.Gen.ReferenceIdeal.Read
import proofs.«133562_j58780922413075_1_alg».proof.Proof.RowBlocks
import proofs.«133562_j58780922413075_1_alg».proof.Proof.SharedHops
import proofs.«133562_j58780922413075_1_alg».proof.Proof.ReferenceFilter
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference is a line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, both programs end with the filter's output of the same four signals and taps:
    the kernel's array by its blocks (RowBlocks.run) and the identity of the hop signals (SharedHops), the reference's by its run
    read at an index (ReferenceFilter.result_eq). -/
theorem algebraic : Cert.algebraic_KernelIdeal_ReferenceIdeal := by
  intro m ρ m' ρ' _ hagree
  refine ⟨fun c => Cert.KernelIdeal.RowBlocks.filtered m c, Cert.KernelIdeal.RowBlocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v59_eq, Cert.ReferenceIdeal.Filter.result_eq,
    (hagree c).1, (hagree c).2.1, (hagree c).2.2.1, (hagree c).2.2.2]
  show _ = Cert.GraphFilter.filter _ _ _ _ _
  rw [Cert.KernelIdeal.SharedHops.hop0 m c, Cert.KernelIdeal.SharedHops.hop1 m c, Cert.KernelIdeal.SharedHops.hop2 m c,
    Cert.KernelIdeal.SharedHops.hop3 m c, Cert.KernelIdeal.SharedHops.taps m c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
